-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S64x2048x2048 : Shape := ⟨3, ![64, 2048, 2048]⟩
abbrev S_ : Shape := ⟨0, ![]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel
  bcast_S_S64x2048x2048 : S_.BroadcastsInDim S64x2048x2048 (![] : Fin 0 → Fin S64x2048x2048.rank)
  reducesTo_S64x2048x2048_S_d0_1_2 : S64x2048x2048.ReducesTo [0, 1, 2] S_

variable [Facts]

def fn_part1 {F : FTy → Type} [FloatOps F] (main_v13 : IVec S_ 1) (main_v16 : IVec S64x2048x2048 1) : IVec S_ 1 :=
  let main_c_5 : IVec S_ 1 := constantI S_ 1 1#1
  let main_v17 : IVec S_ 1 := (fun x v => Host.reduce IntOp.andi x v reducesTo_S64x2048x2048_S_d0_1_2 h_S_) main_v16 main_c_5
  let main_v18 : IVec S_ 1 := andi main_v13 main_v17
  main_v18

def fn {F : FTy → Type} [FloatOps F] (main_arg0 : FVec F S64x2048x64 .f32) (main_arg1 : FVec F S64x2048x64 .f32) (main_arg2 : FVec F S64x2048x64 .f32) (main_arg3 : FVec F S64x2048x2048 .f32) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  let main_v14 : FVec F S64x2048x2048 .f32 := Host.absf main_arg3
  let main_cst_4 : FVec F S_ .f32 := constant S_ .f32 0x7F800000#32
  let main_v15 : FVec F S64x2048x2048 .f32 := broadcastInDim S64x2048x2048 ![] bcast_S_S64x2048x2048 main_cst_4
  let main_v16 : IVec S64x2048x2048 1 := cmpf .olt main_v14 main_v15
  fn_part1 (F := F) main_v13 main_v16
-- ==== Kernel.lean ====
abbrev S64x2048x64 : Shape := ⟨3, ![64, 2048, 64]⟩
abbrev S64x2048x2048 : Shape := ⟨3, ![64, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .f32⟩
  | .hbm, ⟨4, _⟩ => ⟨S64x2048x64, .f32⟩
  | .hbm, ⟨5, _⟩ => ⟨S64x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .f32⟩
  | .local _ .vmem, ⟨7, _⟩ => ⟨S1x256x2048, .f32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S64x2048x64.size a
  hwx0_0 : ∀ i : grid0.Coords, EltTy.bits .f32 = 32 ∨ (Rect.block (s := S64x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S64x2048x2048.size a
  hwx0_3 : ∀ i : grid0.Coords, EltTy.bits .f32 = 32 ∨ (Rect.block (s := S64x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S64x2048x64.size a
  hwx0_4 : ∀ i : grid0.Coords, EltTy.bits .f32 = 32 ∨ (Rect.block (s := S64x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S64x2048x2048.size a
  hwx0_5 : ∀ i : grid0.Coords, EltTy.bits .f32 = 32 ∨ (Rect.block (s := S64x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .f32⟩
  | .hbm, ⟨4, _⟩ => ⟨S64x2048x2048, .f32⟩
  | .hbm, ⟨5, _⟩ => ⟨S_, .f32⟩
  | .hbm, ⟨6, _⟩ => ⟨S64x2048x2048, .f32⟩
  | .hbm, ⟨7, _⟩ => ⟨S64x2048x2048, .f32⟩
  | .hbm, ⟨8, _⟩ => ⟨S64x2048x2048, .f32⟩
  | .hbm, ⟨9, _⟩ => ⟨S_, .f32⟩
  | .hbm, ⟨10, _⟩ => ⟨S64x2048x2048, .f32⟩
  | .hbm, ⟨11, _⟩ => ⟨S64x2048x2048, .i1⟩
  | .hbm, ⟨12, _⟩ => ⟨S_, .f32⟩
  | .hbm, ⟨13, _⟩ => ⟨S_, .f32⟩
  | .hbm, ⟨14, _⟩ => ⟨S64x2048x2048, .f32⟩
  | .hbm, ⟨15, _⟩ => ⟨S64x2048x2048, .f32⟩
  | .hbm, ⟨16, _⟩ => ⟨S_, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x2048x1, .f32⟩
  | .hbm, ⟨22, _⟩ => ⟨S64x2048x2048, .f32⟩
  | .hbm, ⟨23, _⟩ => ⟨S64x2048x2048, .f32⟩
  | .hbm, ⟨24, _⟩ => ⟨S64x2048x2048, .f32⟩
  | .hbm, ⟨25, _⟩ => ⟨S_, .f32⟩
  | .hbm, ⟨26, _⟩ => ⟨S64x2048, .f32⟩
  | .hbm, ⟨27, _⟩ => ⟨S64x2048x1, .f32⟩
  | .hbm, ⟨28, _⟩ => ⟨S64x2048x2048, .f32⟩
  | .hbm, ⟨29, _⟩ => ⟨S64x2048x2048, .f32⟩
  | .hbm, ⟨30, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.BlockOps.lean ====
/-
  The non-pointwise operations of the kernel's body, each read at an index of its result.

  A block of the kernel carries a leading unit axis ([1, rows, cols]); the body drops it, computes on
  [rows, cols] matrices, and puts it back. Read at an index:
    · dropping the unit axis reads (r, c) at (0, r, c);
    · a column [256] re-laid as [256, 1] and broadcast along the lanes reads (r, j) at r;
    · the product q·kᵀ (contracting the feature axis of both operands) at (r, j) is Σ_d A (r, d) · B (j, d);
    · the product p·v (contracting the key axis) at (r, e) is Σ_j A (r, j) · B (j, e);
    · a lane sum at r is Σ_j src (r, j), a lane maximum at r the maximum from -∞ over j of src (r, j).
-/
import proofs.«126174_j7181185319548_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockOps

open Cert.KernelIdeal Cert.KernelIdeal.Gen Idealize.ShloMosaic Idealize.ShloMosaic.ValueIdx

/-! ## Dropping the leading unit axis -/

/-- A [1, 256, 64] block viewed [256, 64] reads (r, d) at (0, r, d). -/
theorem drop_256x64 {α : Type} (P : S1x256x64.Idx → α) (h : S1x256x64.ShapeCasts S256x64) (r : Fin 256) (d : Fin 64) :
    shapeCast S256x64 P h (ix2 r d) = P (ix3 (0 : Fin 1) r d) :=
  shapeCast_apply P h (ix2 r d) (ix3 (0 : Fin 1) r d) (by
    rw [Shape.rowMajor_val_two, Shape.rowMajor_val_three]
    show (0 * 256 + r.val) * 64 + d.val = r.val * 64 + d.val; omega)

/-- A [1, 2048, 64] block viewed [2048, 64] reads (j, d) at (0, j, d). -/
theorem drop_2048x64 {α : Type} (P : S1x2048x64.Idx → α) (h : S1x2048x64.ShapeCasts S2048x64) (j : Fin 2048) (d : Fin 64) :
    shapeCast S2048x64 P h (ix2 j d) = P (ix3 (0 : Fin 1) j d) :=
  shapeCast_apply P h (ix2 j d) (ix3 (0 : Fin 1) j d) (by
    rw [Shape.rowMajor_val_two, Shape.rowMajor_val_three]
    show (0 * 2048 + j.val) * 64 + d.val = j.val * 64 + d.val; omega)

/-- A [1, 256, 2048] block viewed [256, 2048] reads (r, j) at (0, r, j). -/
theorem drop_256x2048 {α : Type} (P : S1x256x2048.Idx → α) (h : S1x256x2048.ShapeCasts S256x2048) (r : Fin 256) (j : Fin 2048) :
    shapeCast S256x2048 P h (ix2 r j) = P (ix3 (0 : Fin 1) r j) :=
  shapeCast_apply P h (ix2 r j) (ix3 (0 : Fin 1) r j) (by
    rw [Shape.rowMajor_val_two, Shape.rowMajor_val_three]
    show (0 * 256 + r.val) * 2048 + j.val = r.val * 2048 + j.val; omega)

/-! ## A column broadcast along the lanes -/

/-- A column [256], re-laid [256, 1] and broadcast to [256, 2048], reads (r, j) at r. -/
theorem col_apply {α : Type} (w : S256.Idx → α) (hc : S256.ShapeCasts S256x1) (hb : S256x1.Broadcasts S256x2048)
    (r : Fin 256) (j : Fin 2048) :
    broadcastTo S256x2048 (shapeCast S256x1 w hc) hb (ix2 r j) = w (ix1 r) := by
  refine (broadcastTo_apply (shapeCast S256x1 w hc) hb (ix2 r j) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else j.val; rw [if_pos rfl]
  · exact shapeCast_apply w hc (ix2 r (0 : Fin 1)) (ix1 r) (by
      rw [Shape.rowMajor_val_one, Shape.rowMajor_val_two]
      show r.val = r.val * 1 + 0; omega)

/-! ## The two matrix products -/

/-- The scores' product: [256, 64] by [2048, 64], contracting the feature axis of both. -/
abbrev dQK : DotDims S256x64 S2048x64 S256x2048 := dot_S256x64_S2048x64_S256x2048_1_1_0_0_n_n
/-- The output's product: [256, 2048] by [2048, 64], contracting the key axis. -/
abbrev dPV : DotDims S256x2048 S2048x64 S256x64 := dot_S256x2048_S2048x64_S256x64_1_0_0_1_n_n

theorem qk_lhs_0 (i : S256x2048.Idx) (q : dQK.contr.Idx) : (dQK.lhsIdx i q 0).val = (i 0).val := by
  unfold DotDims.lhsIdx
  rw [dif_neg (show ¬(0 : Fin S256x64.rank) ∈ dQK.lhsBatch by decide), dif_pos (show (0 : Fin S256x64.rank) ∈ dQK.lhsNonContracting by decide)]
  rfl
theorem qk_lhs_1 (i : S256x2048.Idx) (q : dQK.contr.Idx) : (dQK.lhsIdx i q 1).val = (q ⟨0, by decide⟩).val :=
  dQK.lhsIdx_val_of_single rfl i q
theorem qk_rhs_0 (i : S256x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem qk_rhs_1 (i : S256x2048.Idx) (q : dQK.contr.Idx) : (dQK.rhsIdx i q 1).val = (q ⟨0, by decide⟩).val :=
  dQK.rhsIdx_val_of_single rfl i q

/-- The scores' product into a zero accumulator, at (r, j): the inner product of row r of the left operand with row j of
    the right one. -/
theorem qk_apply (A : FVec Ideal S256x64 .bf16) (B : FVec Ideal S2048x64 .bf16) (r : Fin 256) (j : Fin 2048) :
    matmul dQK none A B (constant S256x2048 .f32 0x00000000#32) (ix2 r j) = ∑ d : Fin 64, A (ix2 r d) * B (ix2 j d) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix2 r j) ((contrEquiv1 dQK 64 rfl rfl).symm k) = ix2 r k := funext fun a => Fin.ext (by
    match a with
    | ⟨0, _⟩ => exact qk_lhs_0 _ _
    | ⟨1, _⟩ => exact (qk_lhs_1 _ _).trans hk)
  have er : dQK.rhsIdx (ix2 r j) ((contrEquiv1 dQK 64 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (i : S256x64.Idx) (q : dPV.contr.Idx) : (dPV.lhsIdx i q 0).val = (i 0).val := by
  unfold DotDims.lhsIdx
  rw [dif_neg (show ¬(0 : Fin S256x2048.rank) ∈ dPV.lhsBatch by decide), dif_pos (show (0 : Fin S256x2048.rank) ∈ dPV.lhsNonContracting by decide)]
  rfl
theorem pv_lhs_1 (i : S256x64.Idx) (q : dPV.contr.Idx) : (dPV.lhsIdx i q 1).val = (q ⟨0, by decide⟩).val :=
  dPV.lhsIdx_val_of_single rfl i q
theorem pv_rhs_0 (i : S256x64.Idx) (q : dPV.contr.Idx) : (dPV.rhsIdx i q 0).val = (q ⟨0, by decide⟩).val :=
  dPV.rhsIdx_val_of_single rfl i q
theorem pv_rhs_1 (i : S256x64.Idx) (q : dPV.contr.Idx) : (dPV.rhsIdx i q 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- The output's product into a zero accumulator, at (r, e): row r of the left operand against column e of the right one. -/
theorem pv_apply (A : FVec Ideal S256x2048 .bf16) (B : FVec Ideal S2048x64 .bf16) (r : Fin 256) (e : Fin 64) :
    matmul dPV none A B (constant S256x64 .f32 0x00000000#32) (ix2 r e) = ∑ j : Fin 2048, A (ix2 r j) * B (ix2 j e) := by
  simp only [matmul]
  rw [Ideal.matmul_constant_zero_apply, ← Equiv.sum_comp (contrEquiv1 dPV 2048 rfl rfl).symm]
  refine Finset.sum_congr rfl fun k _ => ?_
  have hk := contrEquiv1_symm_val dPV 2048 rfl rfl k
  have el : dPV.lhsIdx (ix2 r e) ((contrEquiv1 dPV 2048 rfl rfl).symm k) = ix2 r k := funext fun a => Fin.ext (by
    match a with
    | ⟨0, _⟩ => exact pv_lhs_0 _ _
    | ⟨1, _⟩ => exact (pv_lhs_1 _ _).trans hk)
  have er : dPV.rhsIdx (ix2 r e) ((contrEquiv1 dPV 2048 rfl rfl).symm k) = ix2 k e := funext fun a => Fin.ext (by
    match a with
    | ⟨0, _⟩ => exact (pv_rhs_0 _ _).trans hk
    | ⟨1, _⟩ => exact pv_rhs_1 _ _)
  rw [el, er]

/-! ## The two lane reductions -/

/-- The lane sum of a [256, 2048] matrix at row r. -/
theorem laneSum_apply (src : FVec Ideal S256x2048 .f32) (h : S256x2048.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 2048, src (ix2 r j) := by
  refine (Ideal.multiReduction_add_single src _ h hφ hacc (ix1 r)).trans ?_
  refine Finset.sum_congr rfl fun k _ => congrArg src ?_
  funext a; apply Fin.ext
  match a with
  | ⟨0, _⟩ => rfl
  | ⟨1, _⟩ => rfl

/-- The lane maximum of a [256, 2048] matrix at row r: the maximum, from -∞, of the row's entries. -/
theorem laneMax_apply (src : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = (Finset.univ : Finset (Fin 2048)).fold max (Ideal.ofBits .f32 0xFF800000#32) (fun j => src (ix2 r j)) := by
  refine (Ideal.multiReduction_maximumf_single src _ h hφ hacc (ix1 r)).trans ?_
  refine congrArg (fun f => Finset.fold max (Ideal.ofBits .f32 0xFF800000#32) f Finset.univ) (funext fun k => congrArg src ?_)
  funext a; apply Fin.ext
  match a with
  | ⟨0, _⟩ => rfl
  | ⟨1, _⟩ => rfl

end Cert.KernelIdeal.BlockOps

end
-- ==== Proof.AttentionRow.lean ====
/-
  One query row of masked scaled-dot-product attention over the extended reals.

  For a query row `q` (64 features), the keys `K` and values `V` of its batch (2048 rows of 64 features) and
  the row `μ` of the additive mask (2048 entries):
    score j   = -1e30                         where μ j < 0
              = (Σ_d q d · K j d) · (1/8) + μ j   elsewhere,
    softmax s = exp (s j - max s) / Σ_j' exp (s j' - max s), the maximum taken from -∞ over the row,
    attn j    = softmax score j,
    out e     = Σ_j attn j · V j e.
  Both programs compute exactly this function of a row; they differ in how they spell the scale (a product with
  1/8 against a quotient by 8), in taking the maximum once more against -∞, and in the order of the sums.
  This module states the function and the three scalar facts that join the two spellings. No program is
  imported: every row is a plain function on `Fin`.
-/
import Idealize.ShloMosaic.PureOps.Ideal
import Idealize.ShloMosaic.PureOps.Ideal.Laws
import Idealize.ShloMosaic.Lib.ValueIdx

noncomputable section

namespace Cert.AttentionRow

open Idealize.ShloMosaic

/-- The masked, scaled score of key `j` against the query row. -/
def score (q : Fin 64 → EReal) (K : Fin 2048 → Fin 64 → EReal) (μ : Fin 2048 → EReal) (j : Fin 2048) : EReal :=
  Scalar.select (Ideal.cmp .olt (μ j) (Ideal.ofBits .f32 0x00000000#32)) (Ideal.ofBits .f32 0xF149F2CA#32)
    ((∑ d : Fin 64, q d * K j d) * Ideal.ofBits .f32 0x3E000000#32 + μ j)

/-- The maximum of a row, taken from -∞. -/
def rowMax (s : Fin 2048 → EReal) : EReal :=
  (Finset.univ : Finset (Fin 2048)).fold max (Ideal.ofBits .f32 0xFF800000#32) s

/-- The exponential of a row's entry shifted by the row's maximum. -/
def expShift (s : Fin 2048 → EReal) (j : Fin 2048) : EReal := Ideal.exp (s j - rowMax s)

/-- The softmax of a row: the shifted exponential over the sum of the shifted exponentials. -/
def softmax (s : Fin 2048 → EReal) (j : Fin 2048) : EReal := Ideal.div (expShift s j) (∑ j' : Fin 2048, expShift s j')

/-- The attention weights of the query row. -/
def attn (q : Fin 64 → EReal) (K : Fin 2048 → Fin 64 → EReal) (μ : Fin 2048 → EReal) (j : Fin 2048) : EReal :=
  softmax (score q K μ) j

/-- The attention output of the query row at feature `e`. -/
def out (q : Fin 64 → EReal) (K V : Fin 2048 → Fin 64 → EReal) (μ : Fin 2048 → EReal) (e : Fin 64) : EReal :=
  ∑ j : Fin 2048, attn q K μ j * V j e

/-- The pattern of `8.0` denotes the real 8. -/
theorem ofBits_eight : Ideal.ofBits .f32 0x41000000#32 = ((8 : ℝ) : EReal) := by
  simp [Ideal.ofBits, Ideal.ieee, -EReal.coe_mul]; norm_num

/-- The pattern of `0.125` denotes the real 1/8: the reciprocal of 8 is a power of two, so it is exact. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real (the infinities included). -/
theorem div_eight (x : EReal) :
    Ideal.div x (Ideal.ofBits .f32 0x41000000#32) = x * Ideal.ofBits .f32 0x3E000000#32 := by
  rw [ofBits_eight, ofBits_eighth]
  exact Ideal.div_coe (by norm_num) x

/-- -∞ is neutral for the maximum. -/
theorem max_negInf (x : EReal) : max (Ideal.ofBits .f32 0xFF800000#32) x = x := by
  simp [Ideal.ofBits, Ideal.ieee]

end Cert.AttentionRow

end
-- ==== Proof.KernelRow.lean ====
/-
  The kernel's body, read one query row at a time.

  At a grid point the body holds a block of 256 query rows, the batch's 2048 key rows and value rows, and
  the 256 × 2048 block of the mask. Its two stored values — the attention weights (256 × 2048) and the output
  (256 × 64) — are, row by row, the functions `attn` and `out` of Proof/AttentionRow.lean applied to that row of
  the query block, the key and value blocks, and that row of the mask block: the row of scores is the masked,
  scaled product; the lane maximum, the shifted exponential, the lane sum and the quotient are the softmax of the
  row; the second product sums the weights against the value rows. Rounding the operands to bf16 is the identity
  on extended reals.
-/
import proofs.«126174_j7181185319548_2_alg».proof.Proof.BlockOps
import proofs.«126174_j7181185319548_2_alg».proof.Proof.AttentionRow

noncomputable section

namespace Cert.KernelIdeal.Row

open Cert.KernelIdeal Cert.KernelIdeal.Gen Cert.KernelIdeal.BlockOps Idealize.ShloMosaic Idealize.ShloMosaic.ValueIdx
open Cert.AttentionRow

/-- Row r of a [1, 256, 64] query block. -/
abbrev qRow (P0 : Vec Ideal S1x256x64 .f32) (r : Fin 256) : Fin 64 → EReal := fun d => P0 (ix3 (0 : Fin 1) r d)
/-- The rows of a [1, 2048, 64] key or value block. -/
abbrev kvRows (P : Vec Ideal S1x2048x64 .f32) : Fin 2048 → Fin 64 → EReal := fun j d => P (ix3 (0 : Fin 1) j d)
/-- Row r of a [1, 256, 2048] mask block. -/
abbrev mRow (P3 : Vec Ideal S1x256x2048 .f32) (r : Fin 256) : Fin 2048 → EReal := fun j => P3 (ix3 (0 : Fin 1) r j)

/-- The softmax the body computes on a [256, 2048] matrix of scores (lane maximum from -∞, shifted exponential, lane sum,
    quotient), at (r, j): the softmax of row r at j. -/
theorem softmax_block (S : FVec Ideal S256x2048 .f32) (h : S256x2048.Reduces [1] S256) (hφ : FKind.Formats .f32)
    (hmx : (0xFF800000#32 : BitVec 32) = FKind.maximumf.neutral .f32 hφ) (had : (0x00000000#32 : BitVec 32) = FKind.add.neutral .f32 hφ)
    (hc : S256.ShapeCasts S256x1) (hb : S256x1.Broadcasts S256x2048) (r : Fin 256) (j : Fin 2048) :
    divf (exp (subf S (broadcastTo S256x2048 (shapeCast S256x1 (multiReduction .maximumf [1] S256 S 0xFF800000#32 h hφ hmx) hc) hb)))
      (broadcastTo S256x2048 (shapeCast S256x1 (multiReduction .add [1] S256
        (exp (subf S (broadcastTo S256x2048 (shapeCast S256x1 (multiReduction .maximumf [1] S256 S 0xFF800000#32 h hφ hmx) hc) hb)))
        0x00000000#32 h hφ had) hc) hb) (ix2 r j)
      = softmax (fun j => S (ix2 r j)) j := by
  have hexp : ∀ j' : Fin 2048,
      (exp (subf S (broadcastTo S256x2048 (shapeCast S256x1 (multiReduction .maximumf [1] S256 S 0xFF800000#32 h hφ hmx) hc) hb))) (ix2 r j')
        = expShift (fun j => S (ix2 r j)) j' := by
    intro j'
    show Ideal.exp (S (ix2 r j') - broadcastTo S256x2048 (shapeCast S256x1 (multiReduction .maximumf [1] S256 S 0xFF800000#32 h hφ hmx) hc) hb (ix2 r j')) = _
    rw [col_apply, laneMax_apply]
    rfl
  show Ideal.div _ _ = Ideal.div _ _
  rw [hexp, col_apply, laneSum_apply]
  exact congrArg (Ideal.div _) (Finset.sum_congr rfl fun j' _ => hexp j')

/-- The scores the body computes from its blocks, at (r, j): the masked, scaled score of key j against query row r. -/
theorem score_block (P0 : Vec Ideal S1x256x64 .f32) (P1 : Vec Ideal S1x2048x64 .f32) (P3 : Vec Ideal S1x256x2048 .f32)
    (h0 : S1x256x64.ShapeCasts S256x64) (h1 : S1x2048x64.ShapeCasts S2048x64) (h3 : S1x256x2048.ShapeCasts S256x2048)
    (hb : FTy.bits .bf16 < FTy.bits .f32) (r : Fin 256) (j : Fin 2048) :
    select (cmpf .olt (shapeCast S256x2048 P3 h3) (broadcast S256x2048 (Scalar.ofBits (F := Ideal) .f32 0x00000000#32)))
        (broadcast S256x2048 (Scalar.ofBits (F := Ideal) .f32 0xF149F2CA#32))
        (addf (mulf (matmul dQK none (truncf .bf16 (shapeCast S256x64 P0 h0) hb) (truncf .bf16 (shapeCast S2048x64 P1 h1) hb)
            (constant S256x2048 .f32 0x00000000#32)) (broadcast S256x2048 (Scalar.ofBits (F := Ideal) .f32 0x3E000000#32)))
          (shapeCast S256x2048 P3 h3)) (ix2 r j)
      = score (qRow P0 r) (kvRows P1) (mRow P3 r) j := by
  show Scalar.select (Ideal.cmp .olt (shapeCast S256x2048 P3 h3 (ix2 r j)) (Ideal.ofBits .f32 0x00000000#32)) (Ideal.ofBits .f32 0xF149F2CA#32)
      (matmul dQK none (truncf .bf16 (shapeCast S256x64 P0 h0) hb) (truncf .bf16 (shapeCast S2048x64 P1 h1) hb)
            (constant S256x2048 .f32 0x00000000#32) (ix2 r j) * Ideal.ofBits .f32 0x3E000000#32 + shapeCast S256x2048 P3 h3 (ix2 r j)) = _
  rw [qk_apply, drop_256x2048]
  unfold score
  refine congrArg (fun x => Scalar.select _ _ (x * _ + _)) (Finset.sum_congr rfl fun d _ => ?_)
  show shapeCast S256x64 P0 h0 (ix2 r d) * shapeCast S2048x64 P1 h1 (ix2 j d) = _
  rw [drop_256x64, drop_2048x64]

/-- THE ATTENTION WEIGHTS' PAYLOAD at (r, j): the attention weight of key j for query row r of the block. -/
theorem pay2_row (P0 : Vec Ideal S1x256x64 .f32) (P1 : Vec Ideal S1x2048x64 .f32) (P3 : Vec Ideal S1x256x2048 .f32)
    (r : Fin 256) (j : Fin 2048) :
    k0_pay2 (F := Ideal) P0 P1 P3 (ix2 r j) = attn (qRow P0 r) (kvRows P1) (mRow P3 r) j := by
  unfold k0_pay2 attn
  refine (softmax_block _ _ _ _ _ _ _ r j).trans ?_
  exact congrArg (fun s => softmax s j) (funext fun j' => score_block P0 P1 P3 _ _ _ _ r j')

/-- THE OUTPUT'S PAYLOAD at (r, e): the attention output of query row r of the block at feature e. -/
theorem pay4_row (P0 : Vec Ideal S1x256x64 .f32) (P1 P2 : Vec Ideal S1x2048x64 .f32) (P3 : Vec Ideal S1x256x2048 .f32)
    (r : Fin 256) (e : Fin 64) :
    k0_pay4 (F := Ideal) P0 P1 P2 P3 (ix2 r e) = out (qRow P0 r) (kvRows P1) (kvRows P2) (mRow P3 r) e := by
  unfold k0_pay4 out
  refine (pv_apply _ _ r e).trans ?_
  refine Finset.sum_congr rfl fun j _ => ?_
  show k0_pay2 (F := Ideal) P0 P1 P3 (ix2 r j) * shapeCast S2048x64 P2 _ (ix2 j e) = _
  rw [pay2_row, drop_2048x64]

end Cert.KernelIdeal.Row

end
-- ==== Proof.AttentionArrays.lean ====
/-
  Masked scaled-dot-product attention as functions of the whole argument arrays.

  With q, k, v of shape [64, 2048, 64] and the mask of shape [64, 2048, 2048], the weights at (b, r, j) and the
  output at (b, r, e) are the row functions of Proof/AttentionRow.lean at row r of batch b: the query row
  q[b, r, ·], the batch's keys k[b, ·, ·] and values v[b, ·, ·], and the mask row mask[b, r, ·].
  Both programs' results are set against these two functions.
-/
import proofs.«126174_j7181185319548_2_alg».proof.Proof.AttentionRow

noncomputable section

namespace Cert.AttentionArrays

open Idealize.ShloMosaic Idealize.ShloMosaic.ValueIdx Cert.AttentionRow

/-- Row r of batch b of a [64, 2048, 64] array. -/
abbrev rowOf (x : (⟨3, ![64, 2048, 64]⟩ : Shape).Idx → EReal) (b : Fin 64) (r : Fin 2048) : Fin 64 → EReal :=
  fun d => x (ix3 b r d)
/-- The rows of batch b of a [64, 2048, 64] array. -/
abbrev rowsOf (x : (⟨3, ![64, 2048, 64]⟩ : Shape).Idx → EReal) (b : Fin 64) : Fin 2048 → Fin 64 → EReal :=
  fun j d => x (ix3 b j d)
/-- Row r of batch b of the [64, 2048, 2048] mask. -/
abbrev maskRowOf (μ : (⟨3, ![64, 2048, 2048]⟩ : Shape).Idx → EReal) (b : Fin 64) (r : Fin 2048) : Fin 2048 → EReal :=
  fun j => μ (ix3 b r j)

/-- The attention weights at (b, r, j). -/
def weightsAt (q k : (⟨3, ![64, 2048, 64]⟩ : Shape).Idx → EReal) (μ : (⟨3, ![64, 2048, 2048]⟩ : Shape).Idx → EReal)
    (b : Fin 64) (r j : Fin 2048) : EReal :=
  attn (rowOf q b r) (rowsOf k b) (maskRowOf μ b r) j

/-- The attention output at (b, r, e). -/
def outputAt (q k v : (⟨3, ![64, 2048, 64]⟩ : Shape).Idx → EReal) (μ : (⟨3, ![64, 2048, 2048]⟩ : Shape).Idx → EReal)
    (b : Fin 64) (r : Fin 2048) (e : Fin 64) : EReal :=
  out (rowOf q b r) (rowsOf k b) (rowsOf v b) (maskRowOf μ b r) e

/-- The array of attention weights. -/
def weights (q k : (⟨3, ![64, 2048, 64]⟩ : Shape).Idx → EReal) (μ : (⟨3, ![64, 2048, 2048]⟩ : Shape).Idx → EReal) :
    (⟨3, ![64, 2048, 2048]⟩ : Shape).Idx → EReal :=
  fun i => weightsAt q k μ ⟨(i 0).val, (i 0).isLt⟩ ⟨(i 1).val, (i 1).isLt⟩ ⟨(i 2).val, (i 2).isLt⟩

/-- The array of attention outputs. -/
def output (q k v : (⟨3, ![64, 2048, 64]⟩ : Shape).Idx → EReal) (μ : (⟨3, ![64, 2048, 2048]⟩ : Shape).Idx → EReal) :
    (⟨3, ![64, 2048, 64]⟩ : Shape).Idx → EReal :=
  fun i => outputAt q k v μ ⟨(i 0).val, (i 0).isLt⟩ ⟨(i 1).val, (i 1).isLt⟩ ⟨(i 2).val, (i 2).isLt⟩

theorem weights_ix3 (q k : (⟨3, ![64, 2048, 64]⟩ : Shape).Idx → EReal) (μ : (⟨3, ![64, 2048, 2048]⟩ : Shape).Idx → EReal)
    (b : Fin 64) (r j : Fin 2048) : weights q k μ (ix3 b r j) = weightsAt q k μ b r j := rfl

theorem output_ix3 (q k v : (⟨3, ![64, 2048, 64]⟩ : Shape).Idx → EReal) (μ : (⟨3, ![64, 2048, 2048]⟩ : Shape).Idx → EReal)
    (b : Fin 64) (r : Fin 2048) (e : Fin 64) : output q k v μ (ix3 b r e) = outputAt q k v μ b r e := rfl

end Cert.AttentionArrays

end
-- ==== Proof.KernelArrays.lean ====
/-
  From the kernel's blocks to its two result arrays.

  The grid is 64 × 8: point t has batch t / 8 and query tile t % 8, and covers query rows
  256 · (t % 8) … 256 · (t % 8) + 255 of that batch. At that point the query and mask windows hold those rows of
  their batch, the key and value windows hold the batch's whole [2048, 64] matrices, and the two output windows
  write back those rows of the output and of the weights. Hence what point t writes back is the block at t of
  the arrays `output` and `weights` of Proof/AttentionArrays.lean (the body is the row functions, Proof/KernelRow.lean),
  every index of either result lies in the block of the point of its batch and its row's tile, and the arrays after
  the run are those two functions of the argument arrays.
-/
import proofs.«126174_j7181185319548_2_alg».proof.Proof.Gen.KernelIdeal.Value
import proofs.«126174_j7181185319548_2_alg».proof.Proof.KernelRow
import proofs.«126174_j7181185319548_2_alg».proof.Proof.AttentionArrays

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Row Idealize.ShloMosaic.ValueIdx
open Cert.AttentionRow Cert.AttentionArrays

variable (m : (ℓ : Loc nD τ sig) → Buf (Elt Ideal) ℓ) (ρ : Dev nD → PrngReg)

theorem hz : (![0, 0, 0] : Fin 3 → Nat) = fun _ => 0 := funext fun a => by fin_cases a <;> rfl

/-! ## The grid point's batch and query tile -/

/-- The batch of point t. -/
abbrev batchOf (t : Fin cfg0.N) : Fin 64 := ⟨(grid0.coords t 0).val, (grid0.coords t 0).isLt⟩
/-- The query tile of point t. -/
abbrev tileOf (t : Fin cfg0.N) : Fin 8 := ⟨(grid0.coords t 1).val, (grid0.coords t 1).isLt⟩
/-- Row r of point t's tile, as a row of the batch. -/
abbrev rowIn (t : Fin cfg0.N) (r : Fin 256) : Fin 2048 :=
  ⟨(tileOf t).val * 256 + r.val, by have := (tileOf t).isLt; have := r.isLt; omega⟩

/-- A grid coordinate passes through the index maps' 32-bit words unchanged. -/
theorem word_of_coord {n : Nat} (hn : n < 64) : (BitVec.ofNat 32 n).toNat = n := by
  rw [BitVec.toNat_ofNat]; exact Nat.mod_eq_of_lt (by omega)

/-- A query tile's number is below the batch count, so it too fits the index maps' words. -/
theorem tile_lt (t : Fin cfg0.N) : (grid0.coords t 1).val < 64 := by
  have h : (grid0.coords t 1).val < 8 := (grid0.coords t 1).isLt
  omega

/-- The query window's block index at t: (batch, tile, 0). -/
theorem index0 (t : Fin cfg0.N) :
    win0_0.index t 0 = (batchOf t).val ∧ win0_0.index t 1 = (tileOf t).val ∧ win0_0.index t 2 = 0 :=
  ⟨word_of_coord (batchOf t).isLt, word_of_coord (tile_lt t), rfl⟩

/-- The key window's block index at t: (batch, 0, 0). -/
theorem index1 (t : Fin cfg0.N) :
    win0_1.index t 0 = (batchOf t).val ∧ win0_1.index t 1 = 0 ∧ win0_1.index t 2 = 0 :=
  ⟨word_of_coord (batchOf t).isLt, rfl, rfl⟩

/-- The value window's block index at t: (batch, 0, 0). -/
theorem index2 (t : Fin cfg0.N) :
    win0_2.index t 0 = (batchOf t).val ∧ win0_2.index t 1 = 0 ∧ win0_2.index t 2 = 0 :=
  ⟨word_of_coord (batchOf t).isLt, rfl, rfl⟩

/-- The mask window's block index at t: (batch, tile, 0). -/
theorem index3 (t : Fin cfg0.N) :
    win0_3.index t 0 = (batchOf t).val ∧ win0_3.index t 1 = (tileOf t).val ∧ win0_3.index t 2 = 0 :=
  ⟨word_of_coord (batchOf t).isLt, word_of_coord (tile_lt t), rfl⟩

/-- The output window's block index at t: (batch, tile, 0). -/
theorem index4 (t : Fin cfg0.N) :
    win0_4.index t 0 = (batchOf t).val ∧ win0_4.index t 1 = (tileOf t).val ∧ win0_4.index t 2 = 0 :=
  ⟨word_of_coord (batchOf t).isLt, word_of_coord (tile_lt t), rfl⟩

/-- The weights window's block index at t: (batch, tile, 0). -/
theorem index5 (t : Fin cfg0.N) :
    win0_5.index t 0 = (batchOf t).val ∧ win0_5.index t 1 = (tileOf t).val ∧ win0_5.index t 2 = 0 :=
  ⟨word_of_coord (batchOf t).isLt, word_of_coord (tile_lt t), rfl⟩

/-! ## The input windows' blocks as rows of the argument arrays -/

/-- The query block at t: row r, feature d is q[batch, 256·tile + r, d]. -/
theorem qblock_apply (c : Dev nD) (t : Fin cfg0.N) (r : Fin 256) (d : Fin 64) :
    (iblk m c 0 t : Vec Ideal S1x256x64 .f32) (ix3 (0 : Fin 1) r d)
      = (m ((c : Thread nD τ).loc main_arg0) : S64x2048x64.Idx → EReal) (ix3 (batchOf t) (rowIn t r) d) := by
  obtain ⟨e0, e1, e2⟩ := index0 t
  unfold iblk
  rw [View.read_apply]
  show V m c main_arg0 _ = m ((c : Thread nD τ).loc main_arg0) _
  unfold V
  refine congrArg _ (funext fun a => Fin.ext ?_)
  match a with
  | ⟨0, _⟩ => show win0_0.index t 0 * 1 + 1 * 0 = (batchOf t).val; rw [e0]; omega
  | ⟨1, _⟩ => show win0_0.index t 1 * 256 + 1 * r.val = (tileOf t).val * 256 + r.val; rw [e1]; omega
  | ⟨2, _⟩ => show win0_0.index t 2 * 64 + 1 * d.val = d.val; rw [e2]; omega

/-- The key block at t: row j, feature d is k[batch, j, d]. -/
theorem kblock_apply (c : Dev nD) (t : Fin cfg0.N) (j : Fin 2048) (d : Fin 64) :
    (iblk m c 1 t : Vec Ideal S1x2048x64 .f32) (ix3 (0 : Fin 1) j d)
      = (m ((c : Thread nD τ).loc main_arg1) : S64x2048x64.Idx → EReal) (ix3 (batchOf t) j d) := by
  obtain ⟨e0, e1, e2⟩ := index1 t
  unfold iblk
  rw [View.read_apply]
  show V m c main_arg1 _ = m ((c : Thread nD τ).loc main_arg1) _
  unfold V
  refine congrArg _ (funext fun a => Fin.ext ?_)
  match a with
  | ⟨0, _⟩ => show win0_1.index t 0 * 1 + 1 * 0 = (batchOf t).val; rw [e0]; omega
  | ⟨1, _⟩ => show win0_1.index t 1 * 2048 + 1 * j.val = j.val; rw [e1]; omega
  | ⟨2, _⟩ => show win0_1.index t 2 * 64 + 1 * d.val = d.val; rw [e2]; omega

/-- The value block at t: row j, feature e is v[batch, j, e]. -/
theorem vblock_apply (c : Dev nD) (t : Fin cfg0.N) (j : Fin 2048) (d : Fin 64) :
    (iblk m c 2 t : Vec Ideal S1x2048x64 .f32) (ix3 (0 : Fin 1) j d)
      = (m ((c : Thread nD τ).loc main_arg2) : S64x2048x64.Idx → EReal) (ix3 (batchOf t) j d) := by
  obtain ⟨e0, e1, e2⟩ := index2 t
  unfold iblk
  rw [View.read_apply]
  show V m c main_arg2 _ = m ((c : Thread nD τ).loc main_arg2) _
  unfold V
  refine congrArg _ (funext fun a => Fin.ext ?_)
  match a with
  | ⟨0, _⟩ => show win0_2.index t 0 * 1 + 1 * 0 = (batchOf t).val; rw [e0]; omega
  | ⟨1, _⟩ => show win0_2.index t 1 * 2048 + 1 * j.val = j.val; rw [e1]; omega
  | ⟨2, _⟩ => show win0_2.index t 2 * 64 + 1 * d.val = d.val; rw [e2]; omega

/-- The mask block at t: row r, key j is mask[batch, 256·tile + r, j]. -/
theorem mblock_apply (c : Dev nD) (t : Fin cfg0.N) (r : Fin 256) (j : Fin 2048) :
    (iblk m c 3 t : Vec Ideal S1x256x2048 .f32) (ix3 (0 : Fin 1) r j)
      = (m ((c : Thread nD τ).loc main_arg3) : S64x2048x2048.Idx → EReal) (ix3 (batchOf t) (rowIn t r) j) := by
  obtain ⟨e0, e1, e2⟩ := index3 t
  unfold iblk
  rw [View.read_apply]
  show V m c main_arg3 _ = m ((c : Thread nD τ).loc main_arg3) _
  unfold V
  refine congrArg _ (funext fun a => Fin.ext ?_)
  match a with
  | ⟨0, _⟩ => show win0_3.index t 0 * 1 + 1 * 0 = (batchOf t).val; rw [e0]; omega
  | ⟨1, _⟩ => show win0_3.index t 1 * 256 + 1 * r.val = (tileOf t).val * 256 + r.val; rw [e1]; omega
  | ⟨2, _⟩ => show win0_3.index t 2 * 2048 + 1 * j.val = j.val; rw [e2]; omega

/-! ## What the body leaves in each output block -/

/-- The weights block the body leaves, at row r and key j: the attention weight of key j for the block's query row r. -/
theorem wblock_at (x0 : Vec Ideal S1x256x64 .f32) (x1 x2 : Vec Ideal S1x2048x64 .f32) (x3 : Vec Ideal S1x256x2048 .f32)
    (r : Fin 256) (j : Fin 2048) :
    out0_5 x0 x1 x2 x3 (ix3 (0 : Fin 1) r j) = attn (qRow x0 r) (kvRows x1) (mRow x3 r) j := by
  unfold out0_5
  simp only [View.ld_unit_zero (S := S1x256x64) hz, View.ld_unit_zero (S := S1x2048x64) hz, View.ld_unit_zero (S := S1x256x2048) hz]
  refine (Value.canon5_eq x0 x1 x3 (ix3 (0 : Fin 1) r j)).trans ?_
  show k0_pay2 (F := Ideal) x0 x1 x3 (Value.ix5_0 (ix3 (0 : Fin 1) r j)) = _
  have e : Value.ix5_0 (ix3 (0 : Fin 1) r j) = ix2 r j := funext fun a => Fin.ext (by
    match a with
    | ⟨0, _⟩ => rfl
    | ⟨1, _⟩ => rfl)
  rw [e]
  exact pay2_row x0 x1 x3 r j

/-- The output block the body leaves, at row r and feature e: the attention output of the block's query row r. -/
theorem oblock_at (x0 : Vec Ideal S1x256x64 .f32) (x1 x2 : Vec Ideal S1x2048x64 .f32) (x3 : Vec Ideal S1x256x2048 .f32)
    (r : Fin 256) (e : Fin 64) :
    out0_4 x0 x1 x2 x3 (ix3 (0 : Fin 1) r e) = out (qRow x0 r) (kvRows x1) (kvRows x2) (mRow x3 r) e := by
  unfold out0_4
  simp only [View.ld_unit_zero (S := S1x256x64) hz, View.ld_unit_zero (S := S1x2048x64) hz, View.ld_unit_zero (S := S1x256x2048) hz]
  refine (Value.canon4_eq x0 x1 x2 x3 (ix3 (0 : Fin 1) r e)).trans ?_
  show k0_pay4 (F := Ideal) x0 x1 x2 x3 (Value.ix4_0 (ix3 (0 : Fin 1) r e)) = _
  have h : Value.ix4_0 (ix3 (0 : Fin 1) r e) = ix2 r e := funext fun a => Fin.ext (by
    match a with
    | ⟨0, _⟩ => rfl
    | ⟨1, _⟩ => rfl)
  rw [h]
  exact pay4_row x0 x1 x2 x3 r e

/-! ## What a point writes back -/

/-- The rows the point's blocks hold, as rows of the argument arrays. -/
theorem qrow_eq (c : Dev nD) (t : Fin cfg0.N) (r : Fin 256) :
    qRow (iblk m c 0 t) r = rowOf (m ((c : Thread nD τ).loc main_arg0)) (batchOf t) (rowIn t r) :=
  funext fun d => qblock_apply m c t r d
theorem krows_eq (c : Dev nD) (t : Fin cfg0.N) :
    kvRows (iblk m c 1 t) = rowsOf (m ((c : Thread nD τ).loc main_arg1)) (batchOf t) :=
  funext fun j => funext fun d => kblock_apply m c t j d
theorem vrows_eq (c : Dev nD) (t : Fin cfg0.N) :
    kvRows (iblk m c 2 t) = rowsOf (m ((c : Thread nD τ).loc main_arg2)) (batchOf t) :=
  funext fun j => funext fun d => vblock_apply m c t j d
theorem mrow_eq (c : Dev nD) (t : Fin cfg0.N) (r : Fin 256) :
    mRow (iblk m c 3 t) r = maskRowOf (m ((c : Thread nD τ).loc main_arg3)) (batchOf t) (rowIn t r) :=
  funext fun j => mblock_apply m c t r j

/-- WHAT POINT t WRITES BACK to the weights is block t of the array of attention weights. -/
theorem flushed5_eq (c : Dev nD) (t : Fin cfg0.N) :
    (dats m 0 c).flushed 5 t = ((cfg0.win 5).blk t).view.read (Elt Ideal)
      (weights (m ((c : Thread nD τ).loc main_arg0)) (m ((c : Thread nD τ).loc main_arg1)) (m ((c : Thread nD τ).loc main_arg3))) := by
  rw [Value.flushed5]
  funext y
  rw [View.read_apply]
  obtain ⟨r, j, rfl⟩ : ∃ (r : Fin 256) (j : Fin 2048), y = ix3 (0 : Fin 1) r j := ⟨y 1, y 2, funext fun a => Fin.ext (by
    match a with
    | ⟨0, _⟩ => show (y 0).val = 0; have h : (y 0).val < 1 := (y 0).isLt; omega
    | ⟨1, _⟩ => rfl
    | ⟨2, _⟩ => rfl)⟩
  show out0_5 (iblk m c 0 t) (iblk m c 1 t) (iblk m c 2 t) (iblk m c 3 t) (ix3 (0 : Fin 1) r j)
    = weights (m ((c : Thread nD τ).loc main_arg0)) (m ((c : Thread nD τ).loc main_arg1)) (m ((c : Thread nD τ).loc main_arg3))
        (((cfg0.win 5).blk t).view.emb (ix3 (0 : Fin 1) r j))
  refine (wblock_at _ _ _ _ r j).trans ?_
  have he : ((cfg0.win 5).blk t).view.emb (ix3 (0 : Fin 1) r j) = ix3 (batchOf t) (rowIn t r) j := by
    obtain ⟨e0, e1, e2⟩ := index5 t
    funext a; apply Fin.ext
    match a with
    | ⟨0, _⟩ => show win0_5.index t 0 * 1 + 1 * 0 = (batchOf t).val; rw [e0]; omega
    | ⟨1, _⟩ => show win0_5.index t 1 * 256 + 1 * r.val = (tileOf t).val * 256 + r.val; rw [e1]; omega
    | ⟨2, _⟩ => show win0_5.index t 2 * 2048 + 1 * j.val = j.val; rw [e2]; omega
  rw [he, weights_ix3, qrow_eq, krows_eq, mrow_eq]
  rfl

/-- WHAT POINT t WRITES BACK to the output is block t of the array of attention outputs. -/
theorem flushed4_eq (c : Dev nD) (t : Fin cfg0.N) :
    (dats m 0 c).flushed 4 t = ((cfg0.win 4).blk t).view.read (Elt Ideal)
      (output (m ((c : Thread nD τ).loc main_arg0)) (m ((c : Thread nD τ).loc main_arg1)) (m ((c : Thread nD τ).loc main_arg2))
        (m ((c : Thread nD τ).loc main_arg3))) := by
  rw [Value.flushed4]
  funext y
  rw [View.read_apply]
  obtain ⟨r, e, rfl⟩ : ∃ (r : Fin 256) (e : Fin 64), y = ix3 (0 : Fin 1) r e := ⟨y 1, y 2, funext fun a => Fin.ext (by
    match a with
    | ⟨0, _⟩ => show (y 0).val = 0; have h : (y 0).val < 1 := (y 0).isLt; omega
    | ⟨1, _⟩ => rfl
    | ⟨2, _⟩ => rfl)⟩
  show out0_4 (iblk m c 0 t) (iblk m c 1 t) (iblk m c 2 t) (iblk m c 3 t) (ix3 (0 : Fin 1) r e)
    = output (m ((c : Thread nD τ).loc main_arg0)) (m ((c : Thread nD τ).loc main_arg1)) (m ((c : Thread nD τ).loc main_arg2))
        (m ((c : Thread nD τ).loc main_arg3)) (((cfg0.win 4).blk t).view.emb (ix3 (0 : Fin 1) r e))
  refine (oblock_at _ _ _ _ r e).trans ?_
  have he : ((cfg0.win 4).blk t).view.emb (ix3 (0 : Fin 1) r e) = ix3 (batchOf t) (rowIn t r) e := by
    obtain ⟨e0, e1, e2⟩ := index4 t
    funext a; apply Fin.ext
    match a with
    | ⟨0, _⟩ => show win0_4.index t 0 * 1 + 1 * 0 = (batchOf t).val; rw [e0]; omega
    | ⟨1, _⟩ => show win0_4.index t 1 * 256 + 1 * r.val = (tileOf t).val * 256 + r.val; rw [e1]; omega
    | ⟨2, _⟩ => show win0_4.index t 2 * 64 + 1 * e.val = e.val; rw [e2]; omega
  rw [he, output_ix3, qrow_eq, krows_eq, vrows_eq, mrow_eq]
  rfl

/-! ## Every index of a result is in some point's block -/

/-- The point numbered 8·b + q has batch b and tile q (the grid runs row-major, the tile axis fastest). -/
theorem coords_point (b q : Nat) (hb : b < 64) (hq : q < 8) (h : b * 8 + q < cfg0.N) :
    (grid0.coords ⟨b * 8 + q, h⟩ 0).val = b ∧ (grid0.coords ⟨b * 8 + q, h⟩ 1).val = q := by
  constructor
  · show (b * 8 + q) / grid0.stride 0 % 64 = b
    rw [show grid0.stride 0 = 8 from by decide]; omega
  · show (b * 8 + q) / grid0.stride 1 % 8 = q
    rw [show grid0.stride 1 = 1 from by decide]; omega

/-- An index of the weights is in point t's block iff each coordinate is in the block's range on its axis. -/
theorem mem_blk5 (t : Fin cfg0.N) (i : S64x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_1).slice (win0_5.rect t)).set ↔ _
  rw [View.set_slice_whole, Rect.mem_set_unit]
  exact Iff.rfl

/-- An index of the output is in point t's block iff each coordinate is in the block's range on its axis. -/
theorem mem_blk4 (t : Fin cfg0.N) (i : S64x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v0_0).slice (win0_4.rect t)).set ↔ _
  rw [View.set_slice_whole, Rect.mem_set_unit]
  exact Iff.rfl

/-- Index (b, r, j) of the weights is in the block of the point of batch b and tile r / 256. -/
theorem cover5 (i : S64x2048x2048.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hi2 : (i 2).val < 2048 := (i 2).isLt
  have hN : cfg0.N = 512 := N_0
  have ht : (i 0).val * 8 + (i 1).val / 256 < cfg0.N := by omega
  obtain ⟨c0, c1⟩ := coords_point (i 0).val ((i 1).val / 256) hi0 (by omega) ht
  obtain ⟨e0, e1, e2⟩ := index5 ⟨(i 0).val * 8 + (i 1).val / 256, ht⟩
  refine ⟨⟨(i 0).val * 8 + (i 1).val / 256, ht⟩, flush0_5 _, ?_⟩
  rw [mem_blk5]
  intro a
  match a with
  | ⟨0, _⟩ =>
    show win0_5.index ⟨(i 0).val * 8 + (i 1).val / 256, ht⟩ 0 * 1 ≤ (i 0).val
      ∧ (i 0).val < win0_5.index ⟨(i 0).val * 8 + (i 1).val / 256, ht⟩ 0 * 1 + 1
    rw [e0]; show (grid0.coords ⟨(i 0).val * 8 + (i 1).val / 256, ht⟩ 0).val * 1 ≤ _ ∧ _ < (grid0.coords ⟨(i 0).val * 8 + (i 1).val / 256, ht⟩ 0).val * 1 + 1
    rw [c0]; omega
  | ⟨1, _⟩ =>
    show win0_5.index ⟨(i 0).val * 8 + (i 1).val / 256, ht⟩ 1 * 256 ≤ (i 1).val
      ∧ (i 1).val < win0_5.index ⟨(i 0).val * 8 + (i 1).val / 256, ht⟩ 1 * 256 + 256
    rw [e1]; show (grid0.coords ⟨(i 0).val * 8 + (i 1).val / 256, ht⟩ 1).val * 256 ≤ _ ∧ _ < (grid0.coords ⟨(i 0).val * 8 + (i 1).val / 256, ht⟩ 1).val * 256 + 256
    rw [c1]; omega
  | ⟨2, _⟩ =>
    show win0_5.index ⟨(i 0).val * 8 + (i 1).val / 256, ht⟩ 2 * 2048 ≤ (i 2).val
      ∧ (i 2).val < win0_5.index ⟨(i 0).val * 8 + (i 1).val / 256, ht⟩ 2 * 2048 + 2048
    rw [e2]; omega

/-- Index (b, r, e) of the output is in the block of the point of batch b and tile r / 256. -/
theorem cover4 (i : S64x2048x64.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  have hN : cfg0.N = 512 := N_0
  have ht : (i 0).val * 8 + (i 1).val / 256 < cfg0.N := by omega
  obtain ⟨c0, c1⟩ := coords_point (i 0).val ((i 1).val / 256) hi0 (by omega) ht
  obtain ⟨e0, e1, e2⟩ := index4 ⟨(i 0).val * 8 + (i 1).val / 256, ht⟩
  refine ⟨⟨(i 0).val * 8 + (i 1).val / 256, ht⟩, flush0_4 _, ?_⟩
  rw [mem_blk4]
  intro a
  match a with
  | ⟨0, _⟩ =>
    show win0_4.index ⟨(i 0).val * 8 + (i 1).val / 256, ht⟩ 0 * 1 ≤ (i 0).val
      ∧ (i 0).val < win0_4.index ⟨(i 0).val * 8 + (i 1).val / 256, ht⟩ 0 * 1 + 1
    rw [e0]; show (grid0.coords ⟨(i 0).val * 8 + (i 1).val / 256, ht⟩ 0).val * 1 ≤ _ ∧ _ < (grid0.coords ⟨(i 0).val * 8 + (i 1).val / 256, ht⟩ 0).val * 1 + 1
    rw [c0]; omega
  | ⟨1, _⟩ =>
    show win0_4.index ⟨(i 0).val * 8 + (i 1).val / 256, ht⟩ 1 * 256 ≤ (i 1).val
      ∧ (i 1).val < win0_4.index ⟨(i 0).val * 8 + (i 1).val / 256, ht⟩ 1 * 256 + 256
    rw [e1]; show (grid0.coords ⟨(i 0).val * 8 + (i 1).val / 256, ht⟩ 1).val * 256 ≤ _ ∧ _ < (grid0.coords ⟨(i 0).val * 8 + (i 1).val / 256, ht⟩ 1).val * 256 + 256
    rw [c1]; omega
  | ⟨2, _⟩ =>
    show win0_4.index ⟨(i 0).val * 8 + (i 1).val / 256, ht⟩ 2 * 64 ≤ (i 2).val
      ∧ (i 2).val < win0_4.index ⟨(i 0).val * 8 + (i 1).val / 256, ht⟩ 2 * 64 + 64
    rw [e2]; omega

/-! ## The arrays after the run -/

/-- The weights after the run are the array of attention weights of the arguments. -/
theorem final5 (c : Dev nD) : (dats m 0 c).arrAt 5 cfg0.N
    = weights (m ((c : Thread nD τ).loc main_arg0)) (m ((c : Thread nD τ).loc main_arg1)) (m ((c : Thread nD τ).loc main_arg3)) :=
  (dats m 0 c).arrAt_eq_of_cover 5 _ (fun t _ => flushed5_eq m c t) (fun i => cover5 i)

/-- The output after the run is the array of attention outputs of the arguments. -/
theorem final4 (c : Dev nD) : (dats m 0 c).arrAt 4 cfg0.N
    = output (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) (fun i => cover4 i)

/-- THE KERNEL'S RUN: every weakly fair execution terminates with the output and the weights at the attention
    functions of the argument arrays, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.ReferenceRow.lean ====
/-
  The reference's stages, read one query row at a time.

  The reference computes on the whole arrays: a batched product of q and k contracting the feature axis, a
  quotient by 8, the mask added, the entries under a negative mask replaced by -1e30, then the softmax along the
  last axis (maximum from -∞, once more against -∞; shifted exponential; sum from 0; quotient), and a batched product
  with v contracting the key axis. Read at (b, r, ·) each stage is the corresponding function of
  Proof/AttentionRow.lean at row r of batch b:
    · the masked scores are `score` — the quotient by 8 is the product with 1/8 on every extended real;
    · the maximum is `rowMax` of the scores — a further maximum against -∞ changes nothing;
    · the exponentials are `expShift`, the normalized ones `softmax` — a sum from 0 is the sum;
    · the last product is `out`.
  So the reference's two results are the arrays `weights` and `output` of Proof/AttentionArrays.lean.
-/
import proofs.«126174_j7181185319548_2_alg».proof.Proof.Gen.ReferenceIdeal.Read
import proofs.«126174_j7181185319548_2_alg».proof.Proof.AttentionArrays
import Idealize.ShloMosaic.PureOps.Reduce

noncomputable section

namespace Cert.ReferenceIdeal.Row

open Cert.ReferenceIdeal Cert.ReferenceIdeal.Gen Cert.ReferenceIdeal.Read Idealize.ShloMosaic Idealize.ShloMosaic.ValueIdx
open Cert.AttentionRow Cert.AttentionArrays

variable (x0 x1 x2 : (⟨S64x2048x64, .f32⟩ : BufTy).Contents (Elt Ideal)) (x3 : (⟨S64x2048x2048, .f32⟩ : BufTy).Contents (Elt Ideal))

/-- The masked scores at (b, r, j). -/
theorem scores_at (b : Fin 64) (r j : Fin 2048) :
    val_main_v6 (F := Ideal) x0 x1 x3 (ix3 b r j) = score (rowOf x0 b r) (rowsOf x1 b) (maskRowOf x3 b r) j := by
  rw [val_main_v6_apply, val_main_v5_apply, val_main_v4_apply, val_main_cst_0_apply, val_main_call0_v1_apply,
    val_main_call0_v0_apply, val_main_cst_1_apply, val_main_v3_apply, val_main_v2_apply, val_main_v1_apply, val_main_cst_apply,
    val_main_v0_apply]
  show Scalar.select (Ideal.cmp .olt (x3 (ix3 b r j)) (Ideal.ofBits .f32 0x00000000#32)) (Ideal.ofBits .f32 0xF149F2CA#32)
      (Ideal.div (∑ k : Fin 64, x0 (lidx_main_v0 (ix3 b r j) k) * x1 (ridx_main_v0 (ix3 b r j) k)) (Ideal.ofBits .f32 0x41000000#32)
        + x3 (ix3 b r j)) = _
  rw [div_eight]
  unfold score
  refine congrArg (fun x => Scalar.select _ _ (x * _ + _)) (Finset.sum_congr rfl fun k _ => ?_)
  have el : lidx_main_v0 (ix3 b r j) k = ix3 b r k := funext fun a => Fin.ext (by
    match a with
    | ⟨0, _⟩ => rfl
    | ⟨1, _⟩ => rfl
    | ⟨2, _⟩ => rfl)
  have er : ridx_main_v0 (ix3 b r j) k = ix3 b j k := funext fun a => Fin.ext (by
    match a with
    | ⟨0, _⟩ => rfl
    | ⟨1, _⟩ => rfl
    | ⟨2, _⟩ => rfl)
  rw [el, er]

/-- The row's maximum at (b, r): the reduction from -∞ over the last axis, then once more against -∞. -/
theorem max_at (b : Fin 64) (r : Fin 2048) :
    val_main_v9 (F := Ideal) x0 x1 x3 (ix2 b r) = rowMax (score (rowOf x0 b r) (rowsOf x1 b) (maskRowOf x3 b r)) := by
  rw [val_main_v9_apply, val_main_v8_apply, val_main_cst_3_apply]
  show max (Ideal.ofBits .f32 0xFF800000#32) (val_main_v7 (F := Ideal) x0 x1 x3 (ix2 b r)) = _
  rw [max_negInf]
  unfold val_main_v7
  refine (Host.reduce_eq_fold_single FloatOps.maximumf _ _ reducesTo_S64x2048x2048_S64x2048_d2 (by decide) h_S_ (ix2 b r)).trans ?_
  unfold rowMax
  refine congrArg (fun f => Finset.fold max (Ideal.ofBits .f32 0xFF800000#32) f Finset.univ) (funext fun k => ?_)
  have e : (by decide : S64x2048x2048.Reduces [2] S64x2048).lift (ix2 b r) k = ix3 b r ⟨k.val, k.isLt⟩ := funext fun a => Fin.ext (by
    match a with
    | ⟨0, _⟩ => rfl
    | ⟨1, _⟩ => rfl
    | ⟨2, _⟩ => rfl)
  show val_main_v6 (F := Ideal) x0 x1 x3 ((by decide : S64x2048x2048.Reduces [2] S64x2048).lift (ix2 b r) k) = _
  rw [e]
  exact scores_at x0 x1 x3 b r ⟨k.val, k.isLt⟩

/-- The shifted exponentials at (b, r, j). -/
theorem exp_at (b : Fin 64) (r j : Fin 2048) :
    val_main_v13 (F := Ideal) x0 x1 x3 (ix3 b r j) = expShift (score (rowOf x0 b r) (rowsOf x1 b) (maskRowOf x3 b r)) j := by
  rw [val_main_v13_apply, val_main_v12_apply, val_main_v11_apply, val_main_v10_apply]
  have e : idx_main_v10 (idx_main_v11 (ix3 b r j)) = ix2 b r := funext fun a => Fin.ext (by
    match a with
    | ⟨0, _⟩ => rfl
    | ⟨1, _⟩ => rfl)
  rw [e, scores_at, max_at]
  rfl

/-- The attention weights at (b, r, j). -/
theorem weights_at (b : Fin 64) (r j : Fin 2048) :
    val_main_v17 (F := Ideal) x0 x1 x3 (ix3 b r j) = weightsAt x0 x1 x3 b r j := by
  rw [val_main_v17_apply, val_main_v16_apply, val_main_v15_apply, val_main_v14_apply, val_main_cst_4_apply]
  have e : idx_main_v15 (idx_main_v16 (ix3 b r j)) = ix2 b r := funext fun a => Fin.ext (by
    match a with
    | ⟨0, _⟩ => rfl
    | ⟨1, _⟩ => rfl)
  rw [e, exp_at]
  show Ideal.div _ (Ideal.ofBits .f32 0x00000000#32 + _) = _
  rw [Ideal.ofBits_zero_f32, zero_add]
  unfold weightsAt attn softmax
  refine congrArg (Ideal.div _) (Finset.sum_congr rfl fun k _ => ?_)
  have ek : idx_main_v14 (ix2 b r) k = ix3 b r k := funext fun a => Fin.ext (by
    match a with
    | ⟨0, _⟩ => rfl
    | ⟨1, _⟩ => rfl
    | ⟨2, _⟩ => rfl)
  rw [ek]
  exact exp_at x0 x1 x3 b r k

/-- The attention output at (b, r, e). -/
theorem output_at (b : Fin 64) (r : Fin 2048) (e : Fin 64) :
    val_main_v18 (F := Ideal) x0 x1 x2 x3 (ix3 b r e) = outputAt x0 x1 x2 x3 b r e := by
  rw [val_main_v18_apply]
  unfold outputAt out
  refine Finset.sum_congr rfl fun k _ => ?_
  have el : lidx_main_v18 (ix3 b r e) k = ix3 b r k := funext fun a => Fin.ext (by
    match a with
    | ⟨0, _⟩ => rfl
    | ⟨1, _⟩ => rfl
    | ⟨2, _⟩ => rfl)
  have er : ridx_main_v18 (ix3 b r e) k = ix3 b k e := funext fun a => Fin.ext (by
    match a with
    | ⟨0, _⟩ => rfl
    | ⟨1, _⟩ => rfl
    | ⟨2, _⟩ => rfl)
  rw [el, er, weights_at]
  rfl

/-- THE REFERENCE'S WEIGHTS are the array of attention weights. -/
theorem weights_eq : val_main_v17 (F := Ideal) x0 x1 x3 = weights x0 x1 x3 := by
  funext i
  rw [eq_ix3 i]
  exact weights_at x0 x1 x3 (i 0) (i 1) (i 2)

/-- THE REFERENCE'S OUTPUT is the array of attention outputs. -/
theorem output_eq : val_main_v18 (F := Ideal) x0 x1 x2 x3 = output x0 x1 x2 x3 := by
  funext i
  rw [eq_ix3 i]
  exact output_at x0 x1 x2 x3 (i 0) (i 1) (i 2)

end Cert.ReferenceIdeal.Row

end
-- ==== Proof.lean ====
/-
  Masked scaled-dot-product attention: a kernel tiled over (batch, query tile) against the whole-array reference,
  equal over the extended reals.

  For q, k, v of shape [64, 2048, 64] and a mask of shape [64, 2048, 2048], both programs return
    weights[b, r, j] = softmax_j (s[b, r, ·]),   s[b, r, j] = -1e30 where mask[b, r, j] < 0,
                                                         (Σ_d q[b, r, d] · k[b, j, d]) / 8 + mask[b, r, j] elsewhere,
    output[b, r, e]  = Σ_j weights[b, r, j] · v[b, j, e],
  the softmax as exp (s - max s) / Σ exp (s - max s) with the maximum taken from -∞.
  The kernel works on one block of 256 query rows of one batch at a time, holding that batch's keys and values whole,
  multiplies by 1/8 where the reference divides by 8, and rounds its matmul operands to bf16 (the identity on
  extended reals). The reference takes the row maximum once more against -∞ and sums from 0.
    · Proof/AttentionRow.lean states the function of ONE query row, and the scalar facts x / 8 = x · (1/8),
      max (-∞) x = x;
    · Proof/AttentionArrays.lean the two result arrays as that function at each (batch, row);
    · Proof/BlockOps.lean, Proof/KernelRow.lean: the kernel's body at a row of its block is the row function;
    · Proof/KernelArrays.lean: the blocks are rows of the arguments, each point writes back its block of the two
      arrays, the blocks cover the results: the kernel's run ends at the two arrays;
    · Proof/ReferenceRow.lean: the reference's stages at (b, r, ·) are the row function: its results are the two arrays.
  No law used needs finite values: only associativity and commutativity of sums, and the two scalar facts above.
  The idealized kernel is the kernel's own text read over the extended reals (nothing was rewritten), so that
  conjunct is trivial.
-/
import proofs.«126174_j7181185319548_2_alg».proof.Defs
import proofs.«126174_j7181185319548_2_alg».proof.Proof.Gen.Kernel
import proofs.«126174_j7181185319548_2_alg».proof.Proof.Gen.Kernel.Skeleton
import proofs.«126174_j7181185319548_2_alg».proof.Proof.Gen.Kernel.Launch
import proofs.«126174_j7181185319548_2_alg».proof.Proof.Gen.Kernel.Points
import proofs.«126174_j7181185319548_2_alg».proof.Proof.Gen.Kernel.Frame
import proofs.«126174_j7181185319548_2_alg».proof.Proof.Gen.KernelIdeal
import proofs.«126174_j7181185319548_2_alg».proof.Proof.Gen.KernelIdeal.Skeleton
import proofs.«126174_j7181185319548_2_alg».proof.Proof.Gen.KernelIdeal.Launch
import proofs.«126174_j7181185319548_2_alg».proof.Proof.Gen.KernelIdeal.Points
import proofs.«126174_j7181185319548_2_alg».proof.Proof.Gen.KernelIdeal.Frame
import proofs.«126174_j7181185319548_2_alg».proof.Proof.Gen.ReferenceIdeal
import proofs.«126174_j7181185319548_2_alg».proof.Proof.Gen.KernelIdeal.Value
import proofs.«126174_j7181185319548_2_alg».proof.Proof.Gen.ReferenceIdeal.Run
import proofs.«126174_j7181185319548_2_alg».proof.Proof.Gen.ReferenceIdeal.Read
import proofs.«126174_j7181185319548_2_alg».proof.Proof.Gen.Pre_finite_inputs
import proofs.«126174_j7181185319548_2_alg».proof.Proof.KernelArrays
import proofs.«126174_j7181185319548_2_alg».proof.Proof.ReferenceRow
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Over the extended reals the kernel's output and weights and the reference's are the same two functions of the
    arguments: the attention outputs and the attention weights. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.Row.output_eq, (hagree c).1, (hagree c).2.1,
      (hagree c).2.2.1, (hagree c).2.2.2]
  · rw [Cert.ReferenceIdeal.Read.val_main_v17_eq, Cert.ReferenceIdeal.Row.weights_eq, (hagree c).1, (hagree c).2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
